-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x224x224 : Shape := ⟨3, ![128, 224, 224]⟩
abbrev S32x224x224 : Shape := ⟨3, ![32, 224, 224]⟩
abbrev S_ : Shape := ⟨0, ![]⟩

class Facts : Prop where
  bcast_S_S128x224x224 : S_.BroadcastsInDim S128x224x224 (![] : Fin 0 → Fin S128x224x224.rank)
  reducesTo_S128x224x224_S_d0_1_2 : S128x224x224.ReducesTo [0, 1, 2] S_
  h_S_ : 0 < S_.numel
  bcast_S_S32x224x224 : S_.BroadcastsInDim S32x224x224 (![] : Fin 0 → Fin S32x224x224.rank)
  reducesTo_S32x224x224_S_d0_1_2 : S32x224x224.ReducesTo [0, 1, 2] S_

variable [Facts]

def fn {F : FTy → Type} [FloatOps F] (main_arg0 : FVec F S128x224x224 .f32) (main_arg1 : FVec F S32x224x224 .f32) : IVec S_ 1 :=
  let main_v0 : FVec F S128x224x224 .f32 := Host.absf main_arg0
  let main_cst : FVec F S_ .f32 := constant S_ .f32 0x7F800000#32
  let main_v1 : FVec F S128x224x224 .f32 := broadcastInDim S128x224x224 ![] bcast_S_S128x224x224 main_cst
  let main_v2 : IVec S128x224x224 1 := cmpf .olt main_v0 main_v1
  let main_c : IVec S_ 1 := constantI S_ 1 1#1
  let main_v3 : IVec S_ 1 := (fun x v => Host.reduce IntOp.andi x v reducesTo_S128x224x224_S_d0_1_2 h_S_) main_v2 main_c
  let main_v4 : FVec F S32x224x224 .f32 := Host.absf main_arg1
  let main_cst_0 : FVec F S_ .f32 := constant S_ .f32 0x7F800000#32
  let main_v5 : FVec F S32x224x224 .f32 := broadcastInDim S32x224x224 ![] bcast_S_S32x224x224 main_cst_0
  let main_v6 : IVec S32x224x224 1 := cmpf .olt main_v4 main_v5
  let main_c_1 : IVec S_ 1 := constantI S_ 1 1#1
  let main_v7 : IVec S_ 1 := (fun x v => Host.reduce IntOp.andi x v reducesTo_S32x224x224_S_d0_1_2 h_S_) main_v6 main_c_1
  let main_v8 : IVec S_ 1 := andi main_v3 main_v7
  main_v8
-- ==== Kernel.lean ====
abbrev S128x224x224 : Shape := ⟨3, ![128, 224, 224]⟩
abbrev S32x224x224 : Shape := ⟨3, ![32, 224, 224]⟩
abbrev S128x1x50176 : Shape := ⟨3, ![128, 1, 50176]⟩
abbrev S32x50176 : Shape := ⟨2, ![32, 50176]⟩
abbrev S128x32x50176 : Shape := ⟨3, ![128, 32, 50176]⟩
abbrev S1x1x50176 : Shape := ⟨3, ![1, 1, 50176]⟩
abbrev S1x32x50176 : Shape := ⟨3, ![1, 32, 50176]⟩
abbrev S50176 : Shape := ⟨1, ![50176]⟩
abbrev S1x50176 : Shape := ⟨2, ![1, 50176]⟩
abbrev S128x32x224x224 : Shape := ⟨4, ![128, 32, 224, 224]⟩

abbrev nBuf : Space → Nat
  | .hbm => 6
  | .vmem => 5
  | .smem => 0
  | _ => 0

abbrev bufTy : (tb : Table) → Fin (tcTables nBuf tb) → BufTy
  | .hbm, ⟨0, _⟩ => ⟨S128x224x224, .f32⟩
  | .hbm, ⟨1, _⟩ => ⟨S32x224x224, .f32⟩
  | .hbm, ⟨2, _⟩ => ⟨S128x1x50176, .f32⟩
  | .hbm, ⟨3, _⟩ => ⟨S32x50176, .f32⟩
  | .hbm, ⟨4, _⟩ => ⟨S128x32x50176, .f32⟩
  | .hbm, ⟨5, _⟩ => ⟨S128x32x224x224, .f32⟩
  | .local _ .vmem, ⟨0, _⟩ => ⟨S1x1x50176, .f32⟩
  | .local _ .vmem, ⟨1, _⟩ => ⟨S1x1x50176, .f32⟩
  | .local _ .vmem, ⟨2, _⟩ => ⟨S32x50176, .f32⟩
  | .local _ .vmem, ⟨3, _⟩ => ⟨S1x32x50176, .f32⟩
  | .local _ .vmem, ⟨4, _⟩ => ⟨S1x32x50176, .f32⟩
  | _, _ => ⟨S128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x50176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x50176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x50176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x224x224_S128x1x50176 : S128x224x224.ShapeCasts S128x1x50176
  shapeCasts_S32x224x224_S32x50176 : S32x224x224.ShapeCasts S32x50176
  inb_S1x1x50176_S1x1x50176_0_0_0 : ∀ a, (![0, 0, 0] : Fin 3 → Nat) a + S1x1x50176.size a ≤ S1x1x50176.size a
  h_S1x1x50176 : 0 < S1x1x50176.numel
  shapeCasts_S1x1x50176_S50176 : S1x1x50176.ShapeCasts S50176
  inb_S32x50176_S32x50176_0_0 : ∀ a, (![0, 0] : Fin 2 → Nat) a + S32x50176.size a ≤ S32x50176.size a
  h_S32x50176 : 0 < S32x50176.numel
  shapeCasts_S32x50176_S32x50176 : S32x50176.ShapeCasts S32x50176
  shapeCasts_S50176_S1x50176 : S50176.ShapeCasts S1x50176
  broadcasts_S1x50176_S32x50176 : S1x50176.Broadcasts S32x50176
  inb_S1x32x50176_S1x32x50176_0_0_0 : ∀ a, (![0, 0, 0] : Fin 3 → Nat) a + S1x32x50176.size a ≤ S1x32x50176.size a
  h_S1x32x50176 : 0 < S1x32x50176.numel
  shapeCasts_S1x32x50176_S32x50176 : S1x32x50176.ShapeCasts S32x50176
  shapeCasts_S32x50176_S1x32x50176 : S32x50176.ShapeCasts S1x32x50176
  shapeCasts_S128x32x50176_S128x32x224x224 : S128x32x50176.ShapeCasts S128x32x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x50176.size a ≤ S128x1x50176.size a
  hwx0_0 : ∀ i : grid0.Coords, EltTy.bits .f32 = 32 ∨ (Rect.block (s := S128x1x50176) S1x1x50176.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x50176.size a ≤ S32x50176.size a
  hwx0_1 : ∀ i : grid0.Coords, EltTy.bits .f32 = 32 ∨ (Rect.block (s := S32x50176) S32x50176.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x50176.size a ≤ S128x32x50176.size a
  hwx0_2 : ∀ i : grid0.Coords, EltTy.bits .f32 = 32 ∨ (Rect.block (s := S128x32x50176) S1x32x50176.size (cc0_transform_2 i) (hinb0_2 i)).WholeWords (EltTy.packing .f32)

variable [Facts₀]

abbrev win0_0 : Pipeline.Window sig grid0 :=
  Pipeline.Window.ofSpec (Memref.whole main_v0) S1x1x50176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x50176.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x50176.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x224x224 : Shape := ⟨3, ![128, 224, 224]⟩
abbrev S32x224x224 : Shape := ⟨3, ![32, 224, 224]⟩
abbrev S128x1x224x224 : Shape := ⟨4, ![128, 1, 224, 224]⟩
abbrev S1x32x224x224 : Shape := ⟨4, ![1, 32, 224, 224]⟩
abbrev S128x32x224x224 : Shape := ⟨4, ![128, 32, 224, 224]⟩

abbrev nBuf : Space → Nat
  | .hbm => 7
  | .vmem => 0
  | .smem => 0
  | _ => 0

abbrev bufTy : (tb : Table) → Fin (tcTables nBuf tb) → BufTy
  | .hbm, ⟨0, _⟩ => ⟨S128x224x224, .f32⟩
  | .hbm, ⟨1, _⟩ => ⟨S32x224x224, .f32⟩
  | .hbm, ⟨2, _⟩ => ⟨S128x1x224x224, .f32⟩
  | .hbm, ⟨3, _⟩ => ⟨S1x32x224x224, .f32⟩
  | .hbm, ⟨4, _⟩ => ⟨S128x32x224x224, .f32⟩
  | .hbm, ⟨5, _⟩ => ⟨S128x32x224x224, .f32⟩
  | .hbm, ⟨6, _⟩ => ⟨S128x32x224x224, .f32⟩
  | _, _ => ⟨S128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S128x224x224_S128x1x224x224_0_2_3 : S128x224x224.BroadcastsInDim S128x1x224x224 (![0, 2, 3] : Fin 3 → Fin S128x1x224x224.rank)
  bcast_S32x224x224_S1x32x224x224_1_2_3 : S32x224x224.BroadcastsInDim S1x32x224x224 (![1, 2, 3] : Fin 3 → Fin S1x32x224x224.rank)
  bcast_S128x1x224x224_S128x32x224x224_0_1_2_3 : S128x1x224x224.BroadcastsInDim S128x32x224x224 (![0, 1, 2, 3] : Fin 4 → Fin S128x32x224x224.rank)
  bcast_S1x32x224x224_S128x32x224x224_0_1_2_3 : S1x32x224x224.BroadcastsInDim S128x32x224x224 (![0, 1, 2, 3] : Fin 4 → Fin S128x32x224x224.rank)

variable [Facts₀]

class Facts : Prop extends Facts₀ where

variable [Facts]
-- ==== Proof.RegionValue.lean ====
/-
  The array the pallas_call leaves behind, as one function of the two arrays it reads.

  The call works on flattened operands: a0 : [128, 1, 50176] (the images, one row of 224·224 = 50176 lanes per
  batch entry) and a1 : [32, 50176] (the 32 filters, flattened the same way). Grid point b loads row b of
  a0 and all of a1, and stores the block [1, 32, 50176] whose entry (0, ch, l) is a1 (ch, l) · a0 (b, 0, l):
  the filter row times the image row, lane by lane, the image row repeated over the 32 filters. The blocks of the
  128 points tile the output [128, 32, 50176] along its first axis, so after the run the output array is

      scaled a0 a1 (b, ch, l) = a1 (ch, l) · a0 (b, 0, l)

  at every index. Nothing here depends on the float instance: the statement holds at any F.
-/
import proofs.«138465_j19670950216065_2_alg».proof.Proof.Gen.KernelIdeal.Frame
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-! ## Indices -/

/-- The filter entry an output entry reads: (b, ch, l) ↦ (ch, l). -/
abbrev filterAt (i : S128x32x50176.Idx) : S32x50176.Idx := fun a => match a with
  | ⟨0, _⟩ => ⟨(i 1).val, (i 1).isLt⟩
  | ⟨1, _⟩ => ⟨(i 2).val, (i 2).isLt⟩

/-- The image entry an output entry reads: (b, ch, l) ↦ (b, 0, l). -/
abbrev imageAt (i : S128x32x50176.Idx) : S128x1x50176.Idx := fun a => match a with
  | ⟨0, _⟩ => ⟨(i 0).val, (i 0).isLt⟩
  | ⟨1, _⟩ => ⟨0, Nat.one_pos⟩
  | ⟨2, _⟩ => ⟨(i 2).val, (i 2).isLt⟩

/-- The same two maps inside one block: (0, ch, l) ↦ (ch, l) of the filter block (the whole filter array), -/
abbrev blockFilterAt (j : S1x32x50176.Idx) : S32x50176.Idx := fun a => match a with
  | ⟨0, _⟩ => ⟨(j 1).val, (j 1).isLt⟩
  | ⟨1, _⟩ => ⟨(j 2).val, (j 2).isLt⟩

/-- and (0, ch, l) ↦ (0, 0, l) of the image block (one row). -/
abbrev blockImageAt (j : S1x32x50176.Idx) : S1x1x50176.Idx := fun a => match a with
  | ⟨0, _⟩ => ⟨0, Nat.one_pos⟩
  | ⟨1, _⟩ => ⟨0, Nat.one_pos⟩
  | ⟨2, _⟩ => ⟨(j 2).val, (j 2).isLt⟩

/-- The output array: every filter row times every image row, lane by lane. -/
def scaled (a0 : S128x1x50176.Idx → Elt F .f32) (a1 : S32x50176.Idx → Elt F .f32) : S128x32x50176.Idx → Elt F .f32 :=
  fun i => FloatOps.mulf (a1 (filterAt i)) (a0 (imageAt i))

/-! ## One block -/

/-- What the body stores, entry by entry: the image row is flattened to [50176], given a unit row axis, repeated over
    the 32 filter rows, multiplied into the filter block, and the product is given the block's leading unit axis. Each of
    the three reshapes keeps the lane; the repetition forgets the row. -/
theorem stored_apply (x0 : Vec F S1x1x50176 .f32) (x1 : Vec F S32x50176 .f32) (j : S1x32x50176.Idx) :
    k0_pay1 x0 x1 j = FloatOps.mulf (x1 (blockFilterAt j)) (x0 (blockImageAt j)) := by
  have hj0 : (j 0).val = 0 := by have h : (j 0).val < 1 := (j 0).isLt; omega
  have hj1 : (j 1).val < 32 := (j 1).isLt
  have hj2 : (j 2).val < 50176 := (j 2).isLt
  unfold k0_pay1
  -- the product, seen through the added leading unit axis
  rw [shapeCast_apply _ shapeCasts_S32x50176_S1x32x50176 j (blockFilterAt j) (by
    rw [Shape.rowMajor_val_two, Shape.rowMajor_val_three]
    show (j 1).val * 50176 + (j 2).val = ((j 0).val * 32 + (j 1).val) * 50176 + (j 2).val
    rw [hj0]; omega)]
  show FloatOps.mulf (shapeCast S32x50176 x1 shapeCasts_S32x50176_S32x50176 (blockFilterAt j))
      (broadcastTo S32x50176 (shapeCast S1x50176 (shapeCast S50176 x0 shapeCasts_S1x1x50176_S50176) shapeCasts_S50176_S1x50176)
        broadcasts_S1x50176_S32x50176 (blockFilterAt j)) = _
  -- the filter block's reshape is to its own shape
  rw [shapeCast_self]
  -- the repeated row, read at row 0
  rw [broadcastTo_apply _ broadcasts_S1x50176_S32x50176 (blockFilterAt j)
    (fun a => match a with | ⟨0, _⟩ => ⟨0, Nat.one_pos⟩ | ⟨1, _⟩ => ⟨(j 2).val, (j 2).isLt⟩)
    (fun a => match a with
      | ⟨0, _⟩ => by show 0 = if (1 : Nat) = 1 then 0 else _; rw [if_pos rfl]
      | ⟨1, _⟩ => by show (j 2).val = if (50176 : Nat) = 1 then 0 else (j 2).val; rw [if_neg (by decide)])]
  -- the two reshapes of the image row keep the lane
  rw [shapeCast_apply _ shapeCasts_S50176_S1x50176 _ (fun a => match a with | ⟨0, _⟩ => ⟨(j 2).val, (j 2).isLt⟩) (by
    rw [Shape.rowMajor_val_one, Shape.rowMajor_val_two]
    show (j 2).val = 0 * 50176 + (j 2).val
    omega)]
  rw [shapeCast_apply _ shapeCasts_S1x1x50176_S50176 _ (blockImageAt j) (by
    rw [Shape.rowMajor_val_three, Shape.rowMajor_val_one]
    show (0 * 1 + 0) * 50176 + (j 2).val = (j 2).val
    omega)]

end Cert.KernelIdeal.RegionValue

end
-- ==== Proof.RegionArray.lean ====
/-
  From blocks to the array: the output of the pallas_call after all 128 grid points.

  Point t writes back block t of the output, rows [t, t+1) of its first axis and everything of the other two; it read
  row t of the image array and the whole filter array. So what it writes is the block at t of the one function
  RegionValue.scaled of the two arrays as the call finds them, and since every index (b, ch, l) lies in the block of
  the point b, the array after the run is that function.
-/
import proofs.«138465_j19670950216065_2_alg».proof.Proof.RegionValue

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- Where the three windows sit at point t: the image window and the output window on row t of their first axis and at
    the origin of the others, the filter window at the origin. -/
theorem blocks_at : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of scaled of the two arrays the call reads. -/
theorem flushed_eq (c : Dev nD) (t : Fin cfg0.N) :
    (dats m 0 c).flushed 2 t = ((cfg0.win 2).blk t).view.read (Elt F) (scaled (V m c main_v0) (V m c main_v1)) := by
  show (cfg0.win 2).cut (grid0.coords t) ((dats m 0 c).after 2 t) = _
  rw [after0_2]
  unfold out0_2
  rw [View.canon_unit_zero zeros3]
  simp only [View.ld_unit_zero (S := S1x1x50176) zeros3, View.ld_unit_zero (S := S32x50176) zeros2]
  obtain ⟨e00, e01, e02, e10, e11, e20, e21, e22⟩ := blocks_at t
  funext j
  refine (stored_apply (iblk m c 0 t) (iblk m c 1 t) j).trans ?_
  show FloatOps.mulf (V m c main_v1 (((cfg0.win 1).blk t).view.emb (blockFilterAt j)))
      (V m c main_v0 (((cfg0.win 0).blk t).view.emb (blockImageAt j)))
    = FloatOps.mulf (V m c main_v1 (filterAt (((cfg0.win 2).blk t).view.emb j)))
      (V m c main_v0 (imageAt (((cfg0.win 2).blk t).view.emb j)))
  have hj0 : (j 0).val < 1 := (j 0).isLt
  have h1 : ((cfg0.win 1).blk t).view.emb (blockFilterAt j) = filterAt (((cfg0.win 2).blk t).view.emb j) := by
    funext a; apply Fin.ext
    match a with
    | ⟨0, _⟩ => show win0_1.index t (0 : Fin 2) * 32 + 1 * (j 1).val = win0_2.index t (1 : Fin 3) * 32 + 1 * (j 1).val; omega
    | ⟨1, _⟩ => show win0_1.index t (1 : Fin 2) * 50176 + 1 * (j 2).val = win0_2.index t (2 : Fin 3) * 50176 + 1 * (j 2).val; omega
  have h0 : ((cfg0.win 0).blk t).view.emb (blockImageAt j) = imageAt (((cfg0.win 2).blk t).view.emb j) := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 1 + 1 * 0 = 0; omega
    | ⟨2, _⟩ => show win0_0.index t (2 : Fin 3) * 50176 + 1 * (j 2).val = win0_2.index t (2 : Fin 3) * 50176 + 1 * (j 2).val; omega
  rw [h0, h1]

/-- An index is in point t's output block iff each coordinate is in the block's range on its axis. -/
theorem mem_block (t : Fin cfg0.N) (i : S128x32x50176.Idx) :
    i ∈ ((cfg0.win 2).blk t).view.set ↔ ∀ a : Fin 3, win0_2.index t a * S1x32x50176.size a ≤ (i a).val ∧ (i a).val < win0_2.index t a * S1x32x50176.size a + S1x32x50176.size a := by
  show i ∈ ((View.whole main_v2).slice (win0_2.rect t)).set ↔ _
  rw [View.set_slice_whole, Rect.mem_set_unit]
  exact Iff.rfl

/-- Every index (b, ch, l) is in the block of the point b. -/
theorem covered (i : S128x32x50176.Idx) :
    ∃ t : Fin cfg0.N, (cfg0.win 2).flush t = true ∧ i ∈ ((cfg0.win 2).blk t).view.set := by
  have hi0 : (i 0).val < 128 := (i 0).isLt
  have hi1 : (i 1).val < 32 := (i 1).isLt
  have hi2 : (i 2).val < 50176 := (i 2).isLt
  refine ⟨Fin.cast N_0.symm (⟨(i 0).val, hi0⟩ : Fin 128), flush0_2 _, ?_⟩
  obtain ⟨-, -, -, -, -, e20, e21, e22⟩ := blocks_at (Fin.cast N_0.symm (⟨(i 0).val, hi0⟩ : Fin 128))
  have e20' : win0_2.index (Fin.cast N_0.symm (⟨(i 0).val, hi0⟩ : Fin 128)) (0 : Fin 3) = (i 0).val := e20
  rw [mem_block]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 32 ≤ (i 1).val ∧ (i 1).val < win0_2.index _ (1 : Fin 3) * 32 + 32; omega
  | ⟨2, _⟩ => show win0_2.index _ (2 : Fin 3) * 50176 ≤ (i 2).val ∧ (i 2).val < win0_2.index _ (2 : Fin 3) * 50176 + 50176; omega

/-- The output array after the run. -/
theorem output_eq (c : Dev nD) : (dats m 0 c).arrAt 2 cfg0.N = scaled (V m c main_v0) (V m c main_v1) :=
  (dats m 0 c).arrAt_eq_of_cover 2 (scaled (V m c main_v0) (V m c main_v1)) (fun t _ => flushed_eq m c t) covered

end Cert.KernelIdeal.RegionValue

end
-- ==== Proof.ProgramValue.lean ====
/-
  The whole program around the pallas_call, read as values.

  Before the call the program flattens its two arguments: the images [128, 224, 224] to [128, 1, 50176] and the filters
  [32, 224, 224] to [32, 50176]; after it, the output [128, 32, 50176] is unflattened to [128, 32, 224, 224]. A reshape
  keeps the row-major position of every entry. So the program's result is the unflattening of
  RegionValue.scaled of the two flattened arguments, and its arguments end as they began.
-/
import proofs.«138465_j19670950216065_2_alg».proof.Proof.RegionArray
import Idealize.ShloMosaic.Lib.StableHlo.Run

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The image array as the call finds it: the first argument, flattened. -/
theorem images_entry (c : Dev nD) :
    (V m c main_v0 : S128x1x50176.Idx → Elt F .f32)
      = shapeCast S128x1x50176 (m ((c : Thread nD τ).loc main_arg0)) shapeCasts_S128x224x224_S128x1x50176 := by
  show StableHlo.after hostOps0 (fun b => m (c, b)) (Proc.devRef .tc main_v0) = _
  after_results
  rfl

/-- The filter array as the call finds it: the second argument, flattened. -/
theorem filters_entry (c : Dev nD) :
    (V m c main_v1 : S32x50176.Idx → Elt F .f32)
      = shapeCast S32x50176 (m ((c : Thread nD τ).loc main_arg1)) shapeCasts_S32x224x224_S32x50176 := by
  show StableHlo.after hostOps0 (fun b => m (c, b)) (Proc.devRef .tc main_v1) = _
  after_results
  rfl

/-- The program's result after the line that follows the call: the call's output array, unflattened. -/
theorem result_tail (c : Dev nD) :
    (Pipeline.afterTail₀ cfgs (dats m) 0 (V0 m) [hostOps1] c main_v3 : S128x32x224x224.Idx → Elt F .f32)
      = shapeCast S128x32x224x224 ((dats m 0 c).arrAt 2 cfg0.N) shapeCasts_S128x32x50176_S128x32x224x224 := by
  unfold Pipeline.afterTail₀
  show StableHlo.after hostOps1 _ (Proc.devRef .tc main_v3) = _
  after_results
  funext i
  exact congrArg (fun a : S128x32x50176.Idx → Elt F .f32 => shapeCast S128x32x224x224 a shapeCasts_S128x32x50176_S128x32x224x224 i)
    (Pipeline.withArrays_arr spec0 launch0.win.arr_inj c (V0 m c) (fun w => (dats m 0 c).arrAt w cfg0.N) 2)

/-- The run of the whole program, read: the result is the unflattened array of products of the flattened arguments, and
    the arguments end unchanged. -/
theorem run : θ_run defs (onTc (τ := τ) (main (F := F))) ⟨m, fun _ => 0, ρ⟩ fun r => ∀ c : Dev nD,
      r.2.mem ((c : Thread nD τ).loc main_v3)
        = shapeCast S128x32x224x224
            (scaled (shapeCast S128x1x50176 (m ((c : Thread nD τ).loc main_arg0)) shapeCasts_S128x224x224_S128x1x50176)
              (shapeCast S32x50176 (m ((c : Thread nD τ).loc main_arg1)) shapeCasts_S32x224x224_S32x50176))
            shapeCasts_S128x32x50176_S128x32x224x224
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans
          ((result_tail m c).trans (by rw [output_eq m c, images_entry m c, filters_entry m c])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RegionValue

end
-- ==== Proof.SameFunction.lean ====
/-
  The two programs compute one function.

  The reference repeats the images over the 32 filters and the filters over the 128 images, both at [128, 32, 224, 224],
  and multiplies: its entry (b, ch, h, w) is image (b, h, w) · filter (ch, h, w). The kernel's program flattens (h, w) to
  the lane l = 224·h + w, forms filter (ch, l) · image (b, 0, l) at [128, 32, 50176], and unflattens. A reshape keeps
  row-major positions, and 224·h + w is the row-major position of (h, w) in a 224 × 224 plane, so the kernel's entry
  (b, ch, h, w) is filter (ch, h, w) · image (b, h, w). The two entries differ only in the order of the two factors,
  and multiplication of extended reals is commutative (also at the infinities and at 0 · ∞): no finiteness is used.
-/
import proofs.«138465_j19670950216065_2_alg».proof.Proof.RegionValue
import proofs.«138465_j19670950216065_2_alg».proof.Proof.Gen.ReferenceIdeal.Read
import Idealize.ShloMosaic.PureOps.Ideal

set_option maxRecDepth 16384

noncomputable section

namespace Cert.KernelIdeal.RefValue

open Idealize.ShloMosaic Idealize.ShloMosaic.TcCoe Idealize.SL.Sem
open Cert.KernelIdeal Cert.KernelIdeal.Gen Cert.KernelIdeal.RegionValue

/-- The flattened position of an entry of the result: (b, ch, h, w) ↦ (b, ch, 224·h + w). -/
abbrev flat (i : S128x32x224x224.Idx) : S128x32x50176.Idx := fun a => match a with
  | ⟨0, _⟩ => ⟨(i 0).val, (i 0).isLt⟩
  | ⟨1, _⟩ => ⟨(i 1).val, (i 1).isLt⟩
  | ⟨2, _⟩ => ⟨(i 2).val * 224 + (i 3).val, by
      have h2 : (i 2).val < 224 := (i 2).isLt
      have h3 : (i 3).val < 224 := (i 3).isLt
      show (i 2).val * 224 + (i 3).val < 50176
      omega⟩

/-- The image entry behind a result entry: (b, ch, h, w) ↦ (b, h, w). -/
abbrev imageOf (i : S128x32x224x224.Idx) : S128x224x224.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- The filter entry behind a result entry: (b, ch, h, w) ↦ (ch, h, w). -/
abbrev filterOf (i : S128x32x224x224.Idx) : S32x224x224.Idx := fun a => match a with
  | ⟨0, _⟩ => ⟨(i 1).val, (i 1).isLt⟩
  | ⟨1, _⟩ => ⟨(i 2).val, (i 2).isLt⟩
  | ⟨2, _⟩ => ⟨(i 3).val, (i 3).isLt⟩

/-- The kernel program's result, entry by entry, at any float instance: the filter entry times the image entry. -/
theorem kernel_apply {F : FTy → Type} [FloatOps F] (x : S128x224x224.Idx → Elt F .f32) (k : S32x224x224.Idx → Elt F .f32)
    (i : S128x32x224x224.Idx) :
    shapeCast S128x32x224x224
        (scaled (shapeCast S128x1x50176 x shapeCasts_S128x224x224_S128x1x50176)
          (shapeCast S32x50176 k shapeCasts_S32x224x224_S32x50176))
        shapeCasts_S128x32x50176_S128x32x224x224 i
      = FloatOps.mulf (k (filterOf i)) (x (imageOf i)) := by
  have h0 : (i 0).val < 128 := (i 0).isLt
  have h1 : (i 1).val < 32 := (i 1).isLt
  have h2 : (i 2).val < 224 := (i 2).isLt
  have h3 : (i 3).val < 224 := (i 3).isLt
  rw [shapeCast_apply _ shapeCasts_S128x32x50176_S128x32x224x224 i (flat i) (by
    rw [Shape.rowMajor_val_three, Shape.rowMajor_val_four]
    show ((i 0).val * 32 + (i 1).val) * 50176 + ((i 2).val * 224 + (i 3).val)
      = (((i 0).val * 32 + (i 1).val) * 224 + (i 2).val) * 224 + (i 3).val
    omega)]
  show FloatOps.mulf (shapeCast S32x50176 k shapeCasts_S32x224x224_S32x50176 (filterAt (flat i)))
      (shapeCast S128x1x50176 x shapeCasts_S128x224x224_S128x1x50176 (imageAt (flat i))) = _
  rw [shapeCast_apply _ shapeCasts_S32x224x224_S32x50176 (filterAt (flat i)) (filterOf i) (by
    rw [Shape.rowMajor_val_three, Shape.rowMajor_val_two]
    show ((i 1).val * 224 + (i 2).val) * 224 + (i 3).val = (i 1).val * 50176 + ((i 2).val * 224 + (i 3).val)
    omega)]
  rw [shapeCast_apply _ shapeCasts_S128x224x224_S128x1x50176 (imageAt (flat i)) (imageOf i) (by
    rw [Shape.rowMajor_val_three, Shape.rowMajor_val_three]
    show ((i 0).val * 224 + (i 2).val) * 224 + (i 3).val = ((i 0).val * 1 + 0) * 50176 + ((i 2).val * 224 + (i 3).val)
    omega)]

/-- At the extended reals the kernel program's result array is the reference's. -/
theorem result_eq (x : S128x224x224.Idx → Elt Ideal .f32) (k : S32x224x224.Idx → Elt Ideal .f32) :
    shapeCast S128x32x224x224
        (scaled (F := Ideal) (shapeCast S128x1x50176 x shapeCasts_S128x224x224_S128x1x50176)
          (shapeCast S32x50176 k shapeCasts_S32x224x224_S32x50176))
        shapeCasts_S128x32x50176_S128x32x224x224
      = Cert.ReferenceIdeal.Read.val_main_v4 (F := Ideal) x k := by
  funext i
  rw [kernel_apply x k i, Cert.ReferenceIdeal.Read.val_main_v4_apply, Cert.ReferenceIdeal.Read.val_main_v2_apply,
    Cert.ReferenceIdeal.Read.val_main_v0_apply, Cert.ReferenceIdeal.Read.val_main_v3_apply,
    Cert.ReferenceIdeal.Read.val_main_v1_apply]
  have ex : Cert.ReferenceIdeal.Read.idx_main_v0 (Cert.ReferenceIdeal.Read.idx_main_v2 i) = imageOf i :=
    funext fun a => Fin.ext (by match a with | ⟨0, _⟩ => rfl | ⟨1, _⟩ => rfl | ⟨2, _⟩ => rfl)
  have ek : Cert.ReferenceIdeal.Read.idx_main_v1 (Cert.ReferenceIdeal.Read.idx_main_v3 i) = filterOf i :=
    funext fun a => Fin.ext (by match a with | ⟨0, _⟩ => rfl | ⟨1, _⟩ => rfl | ⟨2, _⟩ => rfl)
  rw [ex, ek, Ideal.mulf_def, Ideal.mulf_def]
  exact mul_comm _ _

end Cert.KernelIdeal.RefValue

end
-- ==== Proof.lean ====
/-
  A channel-wise product of images and filters: for images x : [128, 224, 224] and filters k : [32, 224, 224] both
  programs return y : [128, 32, 224, 224] with y (b, ch, h, w) the product of x (b, h, w) and k (ch, h, w).

  The kernel's program flattens each 224 × 224 plane to 50176 lanes, runs one pallas_call over the 128 images (point b
  multiplies the whole filter array, lane by lane, by row b of the images repeated over the 32 filters, and writes block b
  of the output) and unflattens the output. The reference repeats both arrays to the result's shape and multiplies.

  The proof: the three programs run, without a fault and leaving their arguments as they were (the kernel's two readings
  by the generated frame of the call and the lines around it, the reference by its generated run); the idealized kernel
  is the kernel's own text (no operation was rewritten), so there is nothing to preserve; and at the extended reals the
  kernel program's result is the unflattened array of products of the flattened arguments (Proof/RegionValue.lean: one
  block; Proof/RegionArray.lean: the blocks tile the output; Proof/ProgramValue.lean: the lines around the call), which is
  the reference's array entry by entry, the two factors in the other order (Proof/SameFunction.lean). Commutativity of the
  product holds on all extended reals, so the finiteness of the inputs is never used.
-/
import proofs.«138465_j19670950216065_2_alg».proof.Defs
import proofs.«138465_j19670950216065_2_alg».proof.Proof.Gen.Kernel
import proofs.«138465_j19670950216065_2_alg».proof.Proof.Gen.Kernel.Skeleton
import proofs.«138465_j19670950216065_2_alg».proof.Proof.Gen.Kernel.Launch
import proofs.«138465_j19670950216065_2_alg».proof.Proof.Gen.Kernel.Points
import proofs.«138465_j19670950216065_2_alg».proof.Proof.Gen.Kernel.Frame
import proofs.«138465_j19670950216065_2_alg».proof.Proof.Gen.KernelIdeal
import proofs.«138465_j19670950216065_2_alg».proof.Proof.Gen.KernelIdeal.Skeleton
import proofs.«138465_j19670950216065_2_alg».proof.Proof.Gen.KernelIdeal.Launch
import proofs.«138465_j19670950216065_2_alg».proof.Proof.Gen.KernelIdeal.Points
import proofs.«138465_j19670950216065_2_alg».proof.Proof.Gen.KernelIdeal.Frame
import proofs.«138465_j19670950216065_2_alg».proof.Proof.Gen.ReferenceIdeal
import proofs.«138465_j19670950216065_2_alg».proof.Proof.Gen.ReferenceIdeal.Run
import proofs.«138465_j19670950216065_2_alg».proof.Proof.Gen.ReferenceIdeal.Read
import proofs.«138465_j19670950216065_2_alg».proof.Proof.Gen.Pre_finite_inputs
import proofs.«138465_j19670950216065_2_alg».proof.Proof.ProgramValue
import proofs.«138465_j19670950216065_2_alg».proof.Proof.SameFunction
import Idealize.ShloMosaic.Adequacy
import Idealize.ShloMosaic.Init

noncomputable section

namespace Cert.Proof

open Idealize.ShloMosaic Idealize.SL.Sem

/-- The kernel's program runs and keeps its arguments. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at the extended reals. -/
theorem preserves : Cert.preserves_Kernel_KernelIdeal := trivial

/-- From memories that agree on the images and the filters both programs end with the same result array: the
    unflattened products of the flattened arguments on the kernel's side, which is the reference's array of products. -/
theorem algebraic : Cert.algebraic_KernelIdeal_ReferenceIdeal := by
  intro m ρ m' ρ' _ hagree
  refine ⟨_, Cert.KernelIdeal.RegionValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.KernelIdeal.RefValue.result_eq _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
